-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S8 : Shape := ⟨1, ![8]⟩
abbrev S8x1024x4096 : Shape := ⟨3, ![8, 1024, 4096]⟩
abbrev S8x4096 : Shape := ⟨2, ![8, 4096]⟩
abbrev S8x4096x1024 : Shape := ⟨3, ![8, 4096, 1024]⟩
abbrev S8x1024 : Shape := ⟨2, ![8, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S8x1024x4096 : S_.BroadcastsInDim S8x1024x4096 (![] : Fin 0 → Fin S8x1024x4096.rank)
  reducesTo_S8x1024x4096_S_d0_1_2 : S8x1024x4096.ReducesTo [0, 1, 2] S_
  bcast_S_S8x4096 : S_.BroadcastsInDim S8x4096 (![] : Fin 0 → Fin S8x4096.rank)
  reducesTo_S8x4096_S_d0_1 : S8x4096.ReducesTo [0, 1] S_
  bcast_S_S8x4096x1024 : S_.BroadcastsInDim S8x4096x1024 (![] : Fin 0 → Fin S8x4096x1024.rank)
  reducesTo_S8x4096x1024_S_d0_1_2 : S8x4096x1024.ReducesTo [0, 1, 2] S_
  bcast_S_S8x1024 : S_.BroadcastsInDim S8x1024 (![] : Fin 0 → Fin S8x1024.rank)
  reducesTo_S8x1024_S_d0_1 : S8x1024.ReducesTo [0, 1] S_

variable [Facts]

def fn_part1 {F : FTy → Type} [FloatOps F] (main_arg5 : FVec F S8x1024 .f32) (main_v13 : IVec S_ 1) (main_v16 : IVec S8x4096x1024 1) : IVec S_ 1 :=
  let main_c_5 : IVec S_ 1 := constantI S_ 1 1#1
  let main_v17 : IVec S_ 1 := (fun x v => Host.reduce IntOp.andi x v reducesTo_S8x4096x1024_S_d0_1_2 h_S_) main_v16 main_c_5
  let main_v18 : IVec S_ 1 := andi main_v13 main_v17
  let main_v19 : FVec F S8x1024 .f32 := Host.absf main_arg5
  let main_cst_6 : FVec F S_ .f32 := constant S_ .f32 0x7F800000#32
  let main_v20 : FVec F S8x1024 .f32 := broadcastInDim S8x1024 ![] bcast_S_S8x1024 main_cst_6
  let main_v21 : IVec S8x1024 1 := cmpf .olt main_v19 main_v20
  let main_c_7 : IVec S_ 1 := constantI S_ 1 1#1
  let main_v22 : IVec S_ 1 := (fun x v => Host.reduce IntOp.andi x v reducesTo_S8x1024_S_d0_1 h_S_) main_v21 main_c_7
  let main_v23 : IVec S_ 1 := andi main_v18 main_v22
  main_v23

def fn {F : FTy → Type} [FloatOps F] (main_arg0 : FVec F S8192x1024 .f32) (main_arg1 : IVec S8 32) (main_arg2 : FVec F S8x1024x4096 .f32) (main_arg3 : FVec F S8x4096 .f32) (main_arg4 : FVec F S8x4096x1024 .f32) (main_arg5 : FVec F S8x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8x1024x4096 .f32 := Host.absf main_arg2
  let main_cst_0 : FVec F S_ .f32 := constant S_ .f32 0x7F800000#32
  let main_v5 : FVec F S8x1024x4096 .f32 := broadcastInDim S8x1024x4096 ![] bcast_S_S8x1024x4096 main_cst_0
  let main_v6 : IVec S8x1024x4096 1 := cmpf .olt main_v4 main_v5
  let main_c_1 : IVec S_ 1 := constantI S_ 1 1#1
  let main_v7 : IVec S_ 1 := (fun x v => Host.reduce IntOp.andi x v reducesTo_S8x1024x4096_S_d0_1_2 h_S_) main_v6 main_c_1
  let main_v8 : IVec S_ 1 := andi main_v3 main_v7
  let main_v9 : FVec F S8x4096 .f32 := Host.absf main_arg3
  let main_cst_2 : FVec F S_ .f32 := constant S_ .f32 0x7F800000#32
  let main_v10 : FVec F S8x4096 .f32 := broadcastInDim S8x4096 ![] bcast_S_S8x4096 main_cst_2
  let main_v11 : IVec S8x4096 1 := cmpf .olt main_v9 main_v10
  let main_c_3 : IVec S_ 1 := constantI S_ 1 1#1
  let main_v12 : IVec S_ 1 := (fun x v => Host.reduce IntOp.andi x v reducesTo_S8x4096_S_d0_1 h_S_) main_v11 main_c_3
  let main_v13 : IVec S_ 1 := andi main_v8 main_v12
  let main_v14 : FVec F S8x4096x1024 .f32 := Host.absf main_arg4
  let main_cst_4 : FVec F S_ .f32 := constant S_ .f32 0x7F800000#32
  let main_v15 : FVec F S8x4096x1024 .f32 := broadcastInDim S8x4096x1024 ![] bcast_S_S8x4096x1024 main_cst_4
  let main_v16 : IVec S8x4096x1024 1 := cmpf .olt main_v14 main_v15
  fn_part1 (F := F) main_arg5 main_v13 main_v16
-- ==== Kernel.lean ====
abbrev S8192x1024 : Shape := ⟨2, ![8192, 1024]⟩
abbrev S8 : Shape := ⟨1, ![8]⟩
abbrev S8x1024x4096 : Shape := ⟨3, ![8, 1024, 4096]⟩
abbrev S8x4096 : Shape := ⟨2, ![8, 4096]⟩
abbrev S8x4096x1024 : Shape := ⟨3, ![8, 4096, 1024]⟩
abbrev S8x1024 : Shape := ⟨2, ![8, 1024]⟩
abbrev S8x1024x1024 : Shape := ⟨3, ![8, 1024, 1024]⟩
abbrev S8x1x4096 : Shape := ⟨3, ![8, 1, 4096]⟩
abbrev S8x1x1024 : Shape := ⟨3, ![8, 1, 1024]⟩
abbrev S1x1024x1024 : Shape := ⟨3, ![1, 1024, 1024]⟩
abbrev S1x1024x512 : Shape := ⟨3, ![1, 1024, 512]⟩
abbrev S1x1x512 : Shape := ⟨3, ![1, 1, 512]⟩
abbrev S1x512x1024 : Shape := ⟨3, ![1, 512, 1024]⟩
abbrev S1x1x1024 : Shape := ⟨3, ![1, 1, 1024]⟩
abbrev S1024x1024 : Shape := ⟨2, ![1024, 1024]⟩
abbrev S1024x512 : Shape := ⟨2, ![1024, 512]⟩
abbrev S1x512 : Shape := ⟨2, ![1, 512]⟩
abbrev S512x1024 : Shape := ⟨2, ![512, 1024]⟩
abbrev S1x1024 : Shape := ⟨2, ![1, 1024]⟩

abbrev nBuf : Space → Nat
  | .hbm => 11
  | .vmem => 12
  | .smem => 0
  | _ => 0

abbrev bufTy : (tb : Table) → Fin (tcTables nBuf tb) → BufTy
  | .hbm, ⟨0, _⟩ => ⟨S8192x1024, .f32⟩
  | .hbm, ⟨1, _⟩ => ⟨S8, .i32⟩
  | .hbm, ⟨2, _⟩ => ⟨S8x1024x4096, .f32⟩
  | .hbm, ⟨3, _⟩ => ⟨S8x4096, .f32⟩
  | .hbm, ⟨4, _⟩ => ⟨S8x4096x1024, .f32⟩
  | .hbm, ⟨5, _⟩ => ⟨S8x1024, .f32⟩
  | .hbm, ⟨6, _⟩ => ⟨S8x1024x1024, .f32⟩
  | .hbm, ⟨7, _⟩ => ⟨S8x1x4096, .f32⟩
  | .hbm, ⟨8, _⟩ => ⟨S8x1x1024, .f32⟩
  | .hbm, ⟨9, _⟩ => ⟨S8x1024x1024, .f32⟩
  | .hbm, ⟨10, _⟩ => ⟨S8192x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1024x512, .f32⟩
  | .local _ .vmem, ⟨3, _⟩ => ⟨S1x1024x512, .f32⟩
  | .local _ .vmem, ⟨4, _⟩ => ⟨S1x1x512, .f32⟩
  | .local _ .vmem, ⟨5, _⟩ => ⟨S1x1x512, .f32⟩
  | .local _ .vmem, ⟨6, _⟩ => ⟨S1x512x1024, .f32⟩
  | .local _ .vmem, ⟨7, _⟩ => ⟨S1x512x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x1024x1024, .f32⟩
  | .local _ .vmem, ⟨11, _⟩ => ⟨S1x1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  shapeCasts_S8192x1024_S8x1024x1024 : S8192x1024.ShapeCasts S8x1024x1024
  shapeCasts_S8x4096_S8x1x4096 : S8x4096.ShapeCasts S8x1x4096
  shapeCasts_S8x1024_S8x1x1024 : S8x1024.ShapeCasts S8x1x1024
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  bitsLt_bf16_f32 : FTy.bits .bf16 < FTy.bits .f32
  inb_S1x1024x512_S1x1024x512_0_0_0 : ∀ a, (![0, 0, 0] : Fin 3 → Nat) a + S1x1024x512.size a ≤ S1x1024x512.size a
  h_S1x1024x512 : 0 < S1x1024x512.numel
  shapeCasts_S1x1024x512_S1024x512 : S1x1024x512.ShapeCasts S1024x512
  inb_S1x1x512_S1x1x512_0_0_0 : ∀ a, (![0, 0, 0] : Fin 3 → Nat) a + S1x1x512.size a ≤ S1x1x512.size a
  h_S1x1x512 : 0 < S1x1x512.numel
  shapeCasts_S1x1x512_S1x512 : S1x1x512.ShapeCasts S1x512
  broadcasts_S1x512_S1024x512 : S1x512.Broadcasts S1024x512
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1x1024 : S1x1x1024.ShapeCasts S1x1024
  shapeCasts_S1x1024_S1x1024 : S1x1024.ShapeCasts S1x1024
  broadcasts_S1x1024_S1024x1024 : S1x1024.Broadcasts S1024x1024
  shapeCasts_S1024x1024_S1x1024x1024 : S1024x1024.ShapeCasts S1x1024x1024
  shapeCasts_S8x1024x1024_S8192x1024 : S8x1024x1024.ShapeCasts S8192x1024
  dot_S1024x1024_S1024x512_S1024x512_1_0_0_1_n_n_wf : DotDims.WF S1024x1024 S1024x512 S1024x512 [1] [0] [0] [1] [] []
  dot_S1024x512_S512x1024_S1024x1024_1_0_0_1_n_n_wf : DotDims.WF S1024x512 S512x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x1024.size a ≤ S8x1024x1024.size a
  hwx0_0 : ∀ i : grid0.Coords, EltTy.bits .f32 = 32 ∨ (Rect.block (s := S8x1024x1024) S1x1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x512.size a ≤ S8x1024x4096.size a
  hwx0_1 : ∀ i : grid0.Coords, EltTy.bits .f32 = 32 ∨ (Rect.block (s := S8x1024x4096) S1x1024x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x512.size a ≤ S8x1x4096.size a
  hwx0_2 : ∀ i : grid0.Coords, EltTy.bits .f32 = 32 ∨ (Rect.block (s := S8x1x4096) S1x1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x1024.size a ≤ S8x4096x1024.size a
  hwx0_3 : ∀ i : grid0.Coords, EltTy.bits .f32 = 32 ∨ (Rect.block (s := S8x4096x1024) S1x512x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x1024.size a ≤ S8x1x1024.size a
  hwx0_4 : ∀ i : grid0.Coords, EltTy.bits .f32 = 32 ∨ (Rect.block (s := S8x1x1024) S1x1x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1024x1024.size a ≤ S8x1024x1024.size a
  hwx0_5 : ∀ i : grid0.Coords, EltTy.bits .f32 = 32 ∨ (Rect.block (s := S8x1024x1024) S1x1024x1024.size (cc0_transform_5 i) (hinb0_5 i)).WholeWords (EltTy.packing .f32)

variable [Facts₀]

def dot_S1024x1024_S1024x512_S1024x512_1_0_0_1_n_n : DotDims S1024x1024 S1024x512 S1024x512 where
  lhsContracting := [1]
  rhsContracting := [0]
  lhsNonContracting := [0]
  rhsNonContracting := [1]
  lhsBatch := []
  rhsBatch := []
  wf := dot_S1024x1024_S1024x512_S1024x512_1_0_0_1_n_n_wf
def dot_S1024x512_S512x1024_S1024x1024_1_0_0_1_n_n : DotDims S1024x512 S512x1024 S1024x1024 where
  lhsContracting := [1]
  rhsContracting := [0]
  lhsNonContracting := [0]
  rhsNonContracting := [1]
  lhsBatch := []
  rhsBatch := []
  wf := dot_S1024x512_S512x1024_S1024x1024_1_0_0_1_n_n_wf

abbrev win0_0 : Pipeline.Window sig grid0 :=
  Pipeline.Window.ofSpec (Memref.whole main_v0) S1x1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1x1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x1x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S1x512x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x1x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v3) S1x1024x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S8192x1024 : Shape := ⟨2, ![8192, 1024]⟩
abbrev S8 : Shape := ⟨1, ![8]⟩
abbrev S8x1024x4096 : Shape := ⟨3, ![8, 1024, 4096]⟩
abbrev S8x4096 : Shape := ⟨2, ![8, 4096]⟩
abbrev S8x4096x1024 : Shape := ⟨3, ![8, 4096, 1024]⟩
abbrev S8x1024 : Shape := ⟨2, ![8, 1024]⟩
abbrev S8x1024x1024 : Shape := ⟨3, ![8, 1024, 1024]⟩
abbrev S8x1x4096 : Shape := ⟨3, ![8, 1, 4096]⟩
abbrev S_ : Shape := ⟨0, ![]⟩
abbrev S8x1x1024 : Shape := ⟨3, ![8, 1, 1024]⟩

abbrev nBuf : Space → Nat
  | .hbm => 33
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8, .i32⟩
  | .hbm, ⟨2, _⟩ => ⟨S8x1024x4096, .f32⟩
  | .hbm, ⟨3, _⟩ => ⟨S8x4096, .f32⟩
  | .hbm, ⟨4, _⟩ => ⟨S8x4096x1024, .f32⟩
  | .hbm, ⟨5, _⟩ => ⟨S8x1024, .f32⟩
  | .hbm, ⟨6, _⟩ => ⟨S8x1024x1024, .f32⟩
  | .hbm, ⟨7, _⟩ => ⟨S8x1024x4096, .f32⟩
  | .hbm, ⟨8, _⟩ => ⟨S8x1x4096, .f32⟩
  | .hbm, ⟨9, _⟩ => ⟨S8x1024x4096, .f32⟩
  | .hbm, ⟨10, _⟩ => ⟨S8x1024x4096, .f32⟩
  | .hbm, ⟨11, _⟩ => ⟨S8x1024x4096, .f32⟩
  | .hbm, ⟨12, _⟩ => ⟨S8x1024x4096, .f32⟩
  | .hbm, ⟨13, _⟩ => ⟨S_, .f32⟩
  | .hbm, ⟨14, _⟩ => ⟨S8x1024x4096, .f32⟩
  | .hbm, ⟨15, _⟩ => ⟨S8x1024x4096, .f32⟩
  | .hbm, ⟨16, _⟩ => ⟨S8x1024x4096, .f32⟩
  | .hbm, ⟨17, _⟩ => ⟨S_, .f32⟩
  | .hbm, ⟨18, _⟩ => ⟨S8x1024x4096, .f32⟩
  | .hbm, ⟨19, _⟩ => ⟨S8x1024x4096, .f32⟩
  | .hbm, ⟨20, _⟩ => ⟨S8x1024x4096, .f32⟩
  | .hbm, ⟨21, _⟩ => ⟨S_, .f32⟩
  | .hbm, ⟨22, _⟩ => ⟨S8x1024x4096, .f32⟩
  | .hbm, ⟨23, _⟩ => ⟨S8x1024x4096, .f32⟩
  | .hbm, ⟨24, _⟩ => ⟨S_, .f32⟩
  | .hbm, ⟨25, _⟩ => ⟨S8x1024x4096, .f32⟩
  | .hbm, ⟨26, _⟩ => ⟨S8x1024x4096, .f32⟩
  | .hbm, ⟨27, _⟩ => ⟨S8x1024x4096, .f32⟩
  | .hbm, ⟨28, _⟩ => ⟨S8x1024x1024, .f32⟩
  | .hbm, ⟨29, _⟩ => ⟨S8x1x1024, .f32⟩
  | .hbm, ⟨30, _⟩ => ⟨S8x1024x1024, .f32⟩
  | .hbm, ⟨31, _⟩ => ⟨S8x1024x1024, .f32⟩
  | .hbm, ⟨32, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩

abbrev nD : Nat := 1
abbrev τ : Topo := Topo.v7x

variable {F : FTy → Type} [FloatOps F]

class Facts₀ : Prop where
  shapeCasts_S8192x1024_S8x1024x1024 : S8192x1024.ShapeCasts S8x1024x1024
  bcast_S8x4096_S8x1x4096_0_2 : S8x4096.BroadcastsInDim S8x1x4096 (![0, 2] : Fin 2 → Fin S8x1x4096.rank)
  bcast_S8x1x4096_S8x1024x4096_0_1_2 : S8x1x4096.BroadcastsInDim S8x1024x4096 (![0, 1, 2] : Fin 3 → Fin S8x1024x4096.rank)
  bcast_S_S8x1024x4096 : S_.BroadcastsInDim S8x1024x4096 (![] : Fin 0 → Fin S8x1024x4096.rank)
  bcast_S8x1024_S8x1x1024_0_2 : S8x1024.BroadcastsInDim S8x1x1024 (![0, 2] : Fin 2 → Fin S8x1x1024.rank)
  bcast_S8x1x1024_S8x1024x1024_0_1_2 : S8x1x1024.BroadcastsInDim S8x1024x1024 (![0, 1, 2] : Fin 3 → Fin S8x1024x1024.rank)
  shapeCasts_S8x1024x1024_S8192x1024 : S8x1024x1024.ShapeCasts S8192x1024
  dot_S8x1024x1024_S8x1024x4096_S8x1024x4096_2_1_1_2_0_0_wf : DotDims.WF S8x1024x1024 S8x1024x4096 S8x1024x4096 [2] [1] [1] [2] [0] [0]
  dot_S8x1024x4096_S8x4096x1024_S8x1024x1024_2_1_1_2_0_0_wf : DotDims.WF S8x1024x4096 S8x4096x1024 S8x1024x1024 [2] [1] [1] [2] [0] [0]

variable [Facts₀]

def dot_S8x1024x1024_S8x1024x4096_S8x1024x4096_2_1_1_2_0_0 : DotDims S8x1024x1024 S8x1024x4096 S8x1024x4096 where
  lhsContracting := [2]
  rhsContracting := [1]
  lhsNonContracting := [1]
  rhsNonContracting := [2]
  lhsBatch := [0]
  rhsBatch := [0]
  wf := dot_S8x1024x1024_S8x1024x4096_S8x1024x4096_2_1_1_2_0_0_wf
def dot_S8x1024x4096_S8x4096x1024_S8x1024x1024_2_1_1_2_0_0 : DotDims S8x1024x4096 S8x4096x1024 S8x1024x1024 where
  lhsContracting := [2]
  rhsContracting := [1]
  lhsNonContracting := [1]
  rhsNonContracting := [2]
  lhsBatch := [0]
  rhsBatch := [0]
  wf := dot_S8x1024x4096_S8x4096x1024_S8x1024x1024_2_1_1_2_0_0_wf

class Facts : Prop extends Facts₀ where

variable [Facts]
-- ==== Proof.CaseValue.lean ====
/-
  What one grid step leaves in the output's staging block, case by case, for any number type.

  The first hidden tile of an expert (case A) stores the bias row over the whole block, reads the block back, adds the
  step's partial product and stores the sum; every later tile (case B) reads the block the previous step left, adds
  its partial product and stores the sum. Both end with ONE store that covers the whole block, so the block's contents
  afterwards are that store's value.
-/
import proofs.«163050_j7387343749153_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Cases

open Cert.KernelIdeal Cert.KernelIdeal.Gen

variable {F : FTy → Type} [FloatOps F]

/-- Every load and store of the body starts at the block's origin. -/
theorem origin : (![0, 0, 0] : Fin 3 → Nat) = fun _ => 0 := funext fun a => by fin_cases a <;> rfl

/-- A later tile's step: the block it found plus the step's partial product. -/
theorem later_step (c : Dev nD) (i : grid0.Coords) (a2 : Memref sig .tc .vmem S1x1024x1024 .f32) (h2 : a2.IsWhole) (a3 : Memref sig .tc .vmem S1x1024x512 .f32) (h3 : a3.IsWhole) (a4 : Memref sig .tc .vmem S1x1x512 .f32) (h4 : a4.IsWhole) (a5 : Memref sig .tc .vmem S1x512x1024 .f32) (h5 : a5.IsWhole) (a6 : Memref sig .tc .vmem S1x1x1024 .f32) (h6 : a6.IsWhole) (a7 : Memref sig .tc .vmem S1x1024x1024 .f32) (h7 : a7.IsWhole) (hc : ¬cond0_0 i) (x0 : Vec F S1x1024x1024 .f32) (x1 : Vec F S1x1024x512 .f32) (x2 : Vec F S1x1x512 .f32) (x3 : Vec F S1x512x1024 .f32) (x4 : Vec F S1x1x1024 .f32) (xo5 : Vec F S1x1024x1024 .f32) :
    out0_B_5 c i a2 h2 a3 h3 a4 h4 a5 h5 a6 h6 a7 h7 hc x0 x1 x2 x3 x4 xo5 = k0_pay1 (k0_pay2 x0 x1 x2 x3) (k0_pay4 xo5) := by
  unfold out0_B_5
  rw [View.read_writes_eq_canon _ _ _ (cover0_B_5 c i a2 h2 a3 h3 a4 h4 a5 h5 a6 h6 a7 h7 hc x0 x1 x2 x3 x4 xo5)]
  unfold kernelRun0_B
  dsimp only
  sl_unfold_words
  rw [View.canon_unit_zero origin]
  simp only [View.readAt_eq_ld, h2.read_unread, h3.read_unread, h4.read_unread, h5.read_unread, h7.read_unread,
    View.ld_unit_zero (S := S1x1024x1024) origin, View.ld_unit_zero (S := S1x1024x512) origin,
    View.ld_unit_zero (S := S1x1x512) origin, View.ld_unit_zero (S := S1x512x1024) origin]

/-- The first tile's step: the bias row over the block, read back, plus the step's partial product. -/
theorem first_step (c : Dev nD) (i : grid0.Coords) (a2 : Memref sig .tc .vmem S1x1024x1024 .f32) (h2 : a2.IsWhole) (a3 : Memref sig .tc .vmem S1x1024x512 .f32) (h3 : a3.IsWhole) (a4 : Memref sig .tc .vmem S1x1x512 .f32) (h4 : a4.IsWhole) (a5 : Memref sig .tc .vmem S1x512x1024 .f32) (h5 : a5.IsWhole) (a6 : Memref sig .tc .vmem S1x1x1024 .f32) (h6 : a6.IsWhole) (a7 : Memref sig .tc .vmem S1x1024x1024 .f32) (h7 : a7.IsWhole) (hc : cond0_0 i) (x0 : Vec F S1x1024x1024 .f32) (x1 : Vec F S1x1024x512 .f32) (x2 : Vec F S1x1x512 .f32) (x3 : Vec F S1x512x1024 .f32) (x4 : Vec F S1x1x1024 .f32) :
    out0_A_5 c i a2 h2 a3 h3 a4 h4 a5 h5 a6 h6 a7 h7 hc x0 x1 x2 x3 x4 = k0_pay1 (k0_pay2 x0 x1 x2 x3) (k0_pay4 (k0_pay3 x4)) := by
  unfold out0_A_5
  rw [View.read_writes_eq_canon _ _ _ (cover0_A_5 c i a2 h2 a3 h3 a4 h4 a5 h5 a6 h6 a7 h7 hc x0 x1 x2 x3 x4)]
  unfold kernelRun0_A
  dsimp only
  sl_unfold_words
  rw [View.canon_cons_unit_zero (S := S1x1024x1024) origin, View.readCov_unit_zero (S := S1x1024x1024) _ origin]
  simp only [View.readAt_eq_ld, h2.read_unread, h3.read_unread, h4.read_unread, h5.read_unread, h6.read_unread,
    View.ld_unit_zero (S := S1x1024x1024) origin, View.ld_unit_zero (S := S1x1024x512) origin,
    View.ld_unit_zero (S := S1x1x512) origin, View.ld_unit_zero (S := S1x512x1024) origin,
    View.ld_unit_zero (S := S1x1x1024) origin]

end Cert.KernelIdeal.Cases

end
-- ==== Proof.LibBlockSum.lean ====
/-
  Sums over an index range cut into consecutive blocks, in any additive commutative monoid — in particular the
  extended reals, where addition is commutative and associative although it does not cancel.

  * `sum_by_blocks`: a sum over `n * b` indices is the sum over the `n` blocks of the sums over each block's `b`
    indices (the index `j + b * i` is entry `j` of block `i`).
  * `sum_three_parts`: a sum over `a + b + c` indices is the sum of its three consecutive parts.
  * `running_total`: an accumulator started at `z` that adds `g k` at step `k` holds `z + ∑ k < n, g k` after
    `n` steps.
-/
import Mathlib.Algebra.BigOperators.Fin
import Mathlib.Algebra.BigOperators.Group.Finset.Basic

namespace BlockSum

open scoped BigOperators

variable {M : Type*} [AddCommMonoid M]

/-- A sum over `n * b` consecutive indices, block by block: index `j + b * i` is entry `j` of block `i`. -/
theorem sum_by_blocks (n b : ℕ) (f : Fin (n * b) → M) :
    ∑ k, f k = ∑ i : Fin n, ∑ j : Fin b, f (finProdFinEquiv (i, j)) := by
  rw [← Fintype.sum_prod_type']
  exact (Equiv.sum_comp finProdFinEquiv f).symm

/-- The position of entry `j` of block `i`. -/
theorem block_entry_val (n b : ℕ) (i : Fin n) (j : Fin b) :
    (finProdFinEquiv (i, j) : Fin (n * b)).val = j.val + b * i.val := rfl

/-- A sum over `a + b + c` consecutive indices is the sum of its three consecutive parts. -/
theorem sum_three_parts (a b c : ℕ) (f : Fin (a + b + c) → M) :
    ∑ k, f k = ∑ i : Fin a, f (Fin.castAdd c (Fin.castAdd b i))
      + ∑ i : Fin b, f (Fin.castAdd c (Fin.natAdd a i)) + ∑ i : Fin c, f (Fin.natAdd (a + b) i) := by
  rw [Fin.sum_univ_add, Fin.sum_univ_add]

/-- An accumulator started at `z` that adds `g k` at step `k` holds `z` plus the first `n` terms after `n` steps. -/
theorem running_total (z : M) (g : ℕ → M) (acc : ℕ → M) (h0 : acc 0 = z) (hs : ∀ k, acc (k + 1) = acc k + g k) (n : ℕ) :
    acc n = z + ∑ k ∈ Finset.range n, g k := by
  induction n with
  | zero => simp [h0]
  | succ n ih => rw [hs, ih, Finset.sum_range_succ, add_assoc]

end BlockSum
-- ==== Proof.ExpertMlp.lean ====
/-
  The mathematics of one expert's feed-forward block, on the extended reals.

  For expert `e`, token `t` and output feature `d`:

      hidden e t k = gelu ((Σ_{i < 1024} x e t i · w1 e i k) + b1 e k)          (k < 4096)
      out e t d    = (Σ_{k < 4096} hidden e t k · w2 e k d) + b2 e d

  with `gelu z = z · (½ · (1 + tanh (c₂ · (z + c₁ · z³))))`, the constants kept as the float words both programs print.

  The same number computed tile by tile: the 4096 hidden units are cut into 8 consecutive tiles of 512; an accumulator
  starts at `b2 e d` plus the first tile's partial product and then adds one tile's partial product per step. After the
  last tile it holds `out e t d`: addition of extended reals is commutative and associative (it need not cancel, and
  nothing here cancels), so the regrouping holds with infinite entries too.
-/
import Idealize.ShloMosaic.PureOps.Ideal
import proofs.«163050_j7387343749153_2_alg».proof.Proof.LibBlockSum

noncomputable section

namespace Cert.ExpertMlp

open Idealize.ShloMosaic
open scoped BigOperators

/-- The tanh approximation of GELU, `z · (½ · (1 + tanh (c₂ · (z + c₁ · z³))))`, with `z³` grouped as `(z · z) · z`. -/
def gelu (z : EReal) : EReal :=
  z * (Ideal.ofBits .f32 0x3F000000#32 * (Ideal.ofBits .f32 0x3F800000#32
    + Ideal.tanh (Ideal.ofBits .f32 0x3F4C422A#32 * (z + Ideal.ofBits .f32 0x3D372713#32 * (z * z * z)))))

/-- The cube grouped the other way is the same number: multiplication of extended reals is associative. -/
theorem gelu_cube_right (z : EReal) :
    z * (Ideal.ofBits .f32 0x3F000000#32 * (Ideal.ofBits .f32 0x3F800000#32
      + Ideal.tanh (Ideal.ofBits .f32 0x3F4C422A#32 * (z + Ideal.ofBits .f32 0x3D372713#32 * (z * (z * z)))))) = gelu z := by
  unfold gelu
  rw [mul_assoc z z z]

section

variable (x : Fin 8 → Fin 1024 → Fin 1024 → EReal) (w1 : Fin 8 → Fin 1024 → Fin 4096 → EReal)
  (b1 : Fin 8 → Fin 4096 → EReal) (w2 : Fin 8 → Fin 4096 → Fin 1024 → EReal) (b2 : Fin 8 → Fin 1024 → EReal)

/-- Hidden unit `k` of expert `e` at token `t`. -/
def hidden (e : Fin 8) (t : Fin 1024) (k : Fin 4096) : EReal :=
  gelu ((∑ i : Fin 1024, x e t i * w1 e i k) + b1 e k)

/-- Output feature `d` of expert `e` at token `t`. -/
def out (e : Fin 8) (t d : Fin 1024) : EReal :=
  (∑ k : Fin 4096, hidden x w1 b1 e t k * w2 e k d) + b2 e d

/-- Hidden unit `j` of tile `f`: unit `j + 512 · f` (taken modulo 4096 so that it is defined for every `f`). -/
def tile (f : ℕ) (j : Fin 512) : Fin 4096 := ⟨(j.val + 512 * f) % 4096, Nat.mod_lt _ (by decide)⟩

theorem tile_val (f : ℕ) (hf : f < 8) (j : Fin 512) : (tile f j).val = j.val + 512 * f := by
  have := j.isLt
  show (j.val + 512 * f) % 4096 = _
  exact Nat.mod_eq_of_lt (by omega)

/-- Tile `f`'s contribution to output feature `d`. -/
def part (e : Fin 8) (t d : Fin 1024) (f : ℕ) : EReal :=
  ∑ j : Fin 512, hidden x w1 b1 e t (tile f j) * w2 e (tile f j) d

/-- What the accumulator holds after tile `f`: the bias plus the contributions of tiles `0 … f`. -/
def acc (e : Fin 8) (t d : Fin 1024) (f : ℕ) : EReal :=
  b2 e d + ∑ k ∈ Finset.range (f + 1), part x w1 b1 w2 e t d k

theorem acc_zero (e : Fin 8) (t d : Fin 1024) :
    acc x w1 b1 w2 b2 e t d 0 = b2 e d + part x w1 b1 w2 e t d 0 := by
  unfold acc
  rw [Finset.sum_range_one]

theorem acc_succ (e : Fin 8) (t d : Fin 1024) (f : ℕ) :
    acc x w1 b1 w2 b2 e t d (f + 1) = acc x w1 b1 w2 b2 e t d f + part x w1 b1 w2 e t d (f + 1) := by
  unfold acc
  rw [Finset.sum_range_succ _ (f + 1), add_assoc]

/-- After the eighth tile the accumulator holds the output: the eight tiles' sums are the one sum over the 4096 hidden
    units, and the bias may be added first or last. -/
theorem acc_last (e : Fin 8) (t d : Fin 1024) :
    acc x w1 b1 w2 b2 e t d 7 = out x w1 b1 w2 b2 e t d := by
  unfold acc out
  rw [add_comm]
  congr 1
  rw [Finset.sum_range (n := 7 + 1) (fun k => part x w1 b1 w2 e t d k)]
  rw [show (∑ k : Fin 4096, hidden x w1 b1 e t k * w2 e k d)
      = ∑ i : Fin 8, ∑ j : Fin 512, hidden x w1 b1 e t (finProdFinEquiv (i, j)) * w2 e (finProdFinEquiv (i, j)) d from
    BlockSum.sum_by_blocks 8 512 (fun k => hidden x w1 b1 e t k * w2 e k d)]
  refine Finset.sum_congr rfl fun i _ => ?_
  unfold part
  refine Finset.sum_congr rfl fun j _ => ?_
  have hij : tile i.val j = finProdFinEquiv (i, j) :=
    Fin.ext ((tile_val i.val i.isLt j).trans (BlockSum.block_entry_val 8 512 i j).symm)
  rw [hij]

end

end Cert.ExpertMlp

end
-- ==== Proof.LibPlainMatmul.lean ====
/-
  A plain matrix product read at an entry.

  At the exact instance a `tpu.matmul` into the zero accumulator is, at each output index, the sum over the dot's
  contraction index of the products of the operands at the indices the dimension numbers name. For the plainest
  dimension numbers — an M × K matrix times a K × N matrix, one contracted axis, no batch axis — the operand indices at
  output (y, j) and contraction coordinate k are (y, k) and (k, j), and the contraction index is its one coordinate; so
  the entry is the familiar `Σₖ a[y, k] · w[k, j]` over `Fin K`. The four coordinate facts are taken as hypotheses:
  for a concrete record each is one line (two by the record's own single-axis lemmas, two by unfolding the index
  function at a decided membership).
-/
import Idealize.ShloMosaic.PureOps.Ideal.Laws
import Idealize.ShloMosaic.Lib.ValueIdx

noncomputable section

namespace Cert.EdgeScore.Lib

open Idealize.ShloMosaic Idealize.ShloMosaic.ValueIdx

/-- Entry (y, j) of an M × K by K × N product accumulated into zero is `Σₖ a (y, k) · w (k, j)`, `k` over `Fin K`:
    the contraction index re-read as its one coordinate (`hr`, `hs`: one contracted axis of extent K), the operand
    indices by their coordinates (`hl0`, `hl1`, `hr0`, `hr1`). Nothing of real arithmetic is used, so it holds
    with infinite entries too. -/
theorem matmul_zero_ix2_apply {M K N : Nat} {φ₁ φ₂ : FTy}
    (d : DotDims ⟨2, ![M, K]⟩ ⟨2, ![K, N]⟩ ⟨2, ![M, N]⟩) (hr : d.contr.rank = 1) (hs : d.contr.size ⟨0, by omega⟩ = K)
    (hl0 : ∀ (i : (⟨2, ![M, N]⟩ : Shape).Idx) (q : d.contr.Idx), (d.lhsIdx i q 0).val = (i 0).val)
    (hl1 : ∀ (i : (⟨2, ![M, N]⟩ : Shape).Idx) (q : d.contr.Idx), (d.lhsIdx i q 1).val = (q ⟨0, by omega⟩).val)
    (hr0 : ∀ (i : (⟨2, ![M, N]⟩ : Shape).Idx) (q : d.contr.Idx), (d.rhsIdx i q 0).val = (q ⟨0, by omega⟩).val)
    (hr1 : ∀ (i : (⟨2, ![M, N]⟩ : Shape).Idx) (q : d.contr.Idx), (d.rhsIdx i q 1).val = (i 1).val)
    (prec : Option ContractPrecision) (a : FVec Ideal ⟨2, ![M, K]⟩ φ₁) (w : FVec Ideal ⟨2, ![K, N]⟩ φ₂)
    (y : Fin M) (j : Fin N) :
    FloatOps.matmul d prec a w (constant ⟨2, ![M, N]⟩ .f32 0x00000000#32) (ix2 y j)
      = ∑ k : Fin K, a (ix2 y k) * w (ix2 k j) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 y j) ((contrEquiv1 d K hr hs).symm k) = ix2 y k := funext fun c => Fin.ext (by
    match c with
    | ⟨0, _⟩ => exact hl0 _ _
    | ⟨1, _⟩ => exact (hl1 _ _).trans hk)
  have er : d.rhsIdx (ix2 y j) ((contrEquiv1 d K hr hs).symm k) = ix2 k j := funext fun c => Fin.ext (by
    match c with
    | ⟨0, _⟩ => exact (hr0 _ _).trans hk
    | ⟨1, _⟩ => exact hr1 _ _)
  rw [el, er]

end Cert.EdgeScore.Lib

end
-- ==== Proof.BodyValue.lean ====
/-
  The kernel body's arithmetic read at an entry, on the extended reals.

  One grid step holds a 1024 × 1024 block `x` of tokens, a 1024 × 512 tile `w1` of the first weight matrix with its
  512 biases `b1`, and the matching 512 × 1024 tile `w2` of the second weight matrix. The step's partial product at
  (p, q) is  Σ_{k < 512} gelu ((Σ_{i < 1024} x p i · w1 i k) + b1 k) · w2 k q;  the first step of an expert starts the
  output block at the bias row `b2 q` in every row p, and every step adds its partial product to the block.
  Rounding an operand to bf16 changes nothing on the extended reals.
-/
import proofs.«163050_j7387343749153_2_alg».proof.Proof.Gen.KernelIdeal.Skeleton
import proofs.«163050_j7387343749153_2_alg».proof.Proof.ExpertMlp
import proofs.«163050_j7387343749153_2_alg».proof.Proof.LibPlainMatmul
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Body

open Idealize.ShloMosaic Idealize.ShloMosaic.ValueIdx Cert.KernelIdeal Cert.KernelIdeal.Gen Cert.ExpertMlp
open scoped BigOperators

/-- The bias row spread over the block's rows: entry (p, q) is the row's entry q. -/
theorem bias_rows_apply (x4 : Vec Ideal S1x1x1024 .f32) (u : Fin 1) (p q : Fin 1024) :
    k0_pay3 x4 (ix3 u p q) = x4 (ix3 (0 : Fin 1) (0 : Fin 1) q) := by
  unfold k0_pay3
  refine (shapeCast_ab_1ab_apply _ _ u p q).trans ?_
  refine (broadcastTo_1b_ab_apply _ _ p q).trans ?_
  rw [shapeCast_self]
  exact shapeCast_1ab_ab_apply x4 _ (0 : Fin 1) q

/-- The output block read back as a matrix: entry (p, q) is the block's entry (0, p, q). -/
theorem readback_apply (v32 : Vec Ideal S1x1024x1024 .f32) (p q : Fin 1024) :
    k0_pay4 v32 (ix2 p q) = v32 (ix3 (0 : Fin 1) p q) := by
  unfold k0_pay4
  exact shapeCast_1ab_ab_apply v32 _ p q

/-- The block stored at the end of a step: what the block held plus the step's partial product. -/
theorem accumulate_apply (v28 v33 : FVec Ideal S1024x1024 .f32) (u : Fin 1) (p q : Fin 1024) :
    k0_pay1 v28 v33 (ix3 u p q) = v33 (ix2 p q) + v28 (ix2 p q) := by
  unfold k0_pay1
  exact shapeCast_ab_1ab_apply _ _ u p q

/-! ## The step's partial product -/

/-- The first product's operand coordinates: an entry (y, k) of `x · w1` reads row y of the left operand and column k
    of the right one, at the contraction position. -/
theorem first_lhs_row (i : S1024x512.Idx) (q : dot_S1024x1024_S1024x512_S1024x512_1_0_0_1_n_n.contr.Idx) :
    (dot_S1024x1024_S1024x512_S1024x512_1_0_0_1_n_n.lhsIdx i q 0).val = (i 0).val := by
  unfold DotDims.lhsIdx
  rw [dif_neg (show ¬(0 : Fin S1024x1024.rank) ∈ dot_S1024x1024_S1024x512_S1024x512_1_0_0_1_n_n.lhsBatch by decide),
    dif_pos (show (0 : Fin S1024x1024.rank) ∈ dot_S1024x1024_S1024x512_S1024x512_1_0_0_1_n_n.lhsNonContracting by decide)]
  rfl
theorem first_lhs_col (i : S1024x512.Idx) (q : dot_S1024x1024_S1024x512_S1024x512_1_0_0_1_n_n.contr.Idx) :
    (dot_S1024x1024_S1024x512_S1024x512_1_0_0_1_n_n.lhsIdx i q 1).val = (q ⟨0, by decide⟩).val :=
  dot_S1024x1024_S1024x512_S1024x512_1_0_0_1_n_n.lhsIdx_val_of_single rfl i q
theorem first_rhs_row (i : S1024x512.Idx) (q : dot_S1024x1024_S1024x512_S1024x512_1_0_0_1_n_n.contr.Idx) :
    (dot_S1024x1024_S1024x512_S1024x512_1_0_0_1_n_n.rhsIdx i q 0).val = (q ⟨0, by decide⟩).val :=
  dot_S1024x1024_S1024x512_S1024x512_1_0_0_1_n_n.rhsIdx_val_of_single rfl i q
theorem first_rhs_col (i : S1024x512.Idx) (q : dot_S1024x1024_S1024x512_S1024x512_1_0_0_1_n_n.contr.Idx) :
    (dot_S1024x1024_S1024x512_S1024x512_1_0_0_1_n_n.rhsIdx i q 1).val = (i 1).val := by
  unfold DotDims.rhsIdx
  rw [dif_neg (show ¬(1 : Fin S1024x512.rank) ∈ dot_S1024x1024_S1024x512_S1024x512_1_0_0_1_n_n.rhsBatch by decide),
    dif_pos (show (1 : Fin S1024x512.rank) ∈ dot_S1024x1024_S1024x512_S1024x512_1_0_0_1_n_n.rhsNonContracting by decide)]
  rfl

/-- The second product's operand coordinates, likewise. -/
theorem second_lhs_row (i : S1024x1024.Idx) (q : dot_S1024x512_S512x1024_S1024x1024_1_0_0_1_n_n.contr.Idx) :
    (dot_S1024x512_S512x1024_S1024x1024_1_0_0_1_n_n.lhsIdx i q 0).val = (i 0).val := by
  unfold DotDims.lhsIdx
  rw [dif_neg (show ¬(0 : Fin S1024x512.rank) ∈ dot_S1024x512_S512x1024_S1024x1024_1_0_0_1_n_n.lhsBatch by decide),
    dif_pos (show (0 : Fin S1024x512.rank) ∈ dot_S1024x512_S512x1024_S1024x1024_1_0_0_1_n_n.lhsNonContracting by decide)]
  rfl
theorem second_lhs_col (i : S1024x1024.Idx) (q : dot_S1024x512_S512x1024_S1024x1024_1_0_0_1_n_n.contr.Idx) :
    (dot_S1024x512_S512x1024_S1024x1024_1_0_0_1_n_n.lhsIdx i q 1).val = (q ⟨0, by decide⟩).val :=
  dot_S1024x512_S512x1024_S1024x1024_1_0_0_1_n_n.lhsIdx_val_of_single rfl i q
theorem second_rhs_row (i : S1024x1024.Idx) (q : dot_S1024x512_S512x1024_S1024x1024_1_0_0_1_n_n.contr.Idx) :
    (dot_S1024x512_S512x1024_S1024x1024_1_0_0_1_n_n.rhsIdx i q 0).val = (q ⟨0, by decide⟩).val :=
  dot_S1024x512_S512x1024_S1024x1024_1_0_0_1_n_n.rhsIdx_val_of_single rfl i q
theorem second_rhs_col (i : S1024x1024.Idx) (q : dot_S1024x512_S512x1024_S1024x1024_1_0_0_1_n_n.contr.Idx) :
    (dot_S1024x512_S512x1024_S1024x1024_1_0_0_1_n_n.rhsIdx i q 1).val = (i 1).val := by
  unfold DotDims.rhsIdx
  rw [dif_neg (show ¬(1 : Fin S512x1024.rank) ∈ dot_S1024x512_S512x1024_S1024x1024_1_0_0_1_n_n.rhsBatch by decide),
    dif_pos (show (1 : Fin S512x1024.rank) ∈ dot_S1024x512_S512x1024_S1024x1024_1_0_0_1_n_n.rhsNonContracting by decide)]
  rfl

/-- The pre-activation `x · w1 + b1` of a step, as the body spells it. -/
def preact (x0 : Vec Ideal S1x1024x1024 .f32) (x1 : Vec Ideal S1x1024x512 .f32) (x2 : Vec Ideal S1x1x512 .f32) :
    FVec Ideal S1024x512 .f32 :=
  addf (matmul dot_S1024x1024_S1024x512_S1024x512_1_0_0_1_n_n none
      (truncf .bf16 (shapeCast S1024x1024 x0 shapeCasts_S1x1024x1024_S1024x1024) bitsLt_bf16_f32)
      (truncf .bf16 (shapeCast S1024x512 x1 shapeCasts_S1x1024x512_S1024x512) bitsLt_bf16_f32)
      (constant (F := Ideal) S1024x512 .f32 0x00000000#32))
    (broadcastTo S1024x512 (shapeCast S1x512 x2 shapeCasts_S1x1x512_S1x512) broadcasts_S1x512_S1024x512)

/-- Entry (p, k) of the pre-activation: row p of the tokens against column k of the weight tile, plus bias k. -/
theorem preact_apply (x0 : Vec Ideal S1x1024x1024 .f32) (x1 : Vec Ideal S1x1024x512 .f32) (x2 : Vec Ideal S1x1x512 .f32)
    (p : Fin 1024) (k : Fin 512) :
    preact x0 x1 x2 (ix2 p k)
      = (∑ i : Fin 1024, x0 (ix3 (0 : Fin 1) p i) * x1 (ix3 (0 : Fin 1) i k)) + x2 (ix3 (0 : Fin 1) (0 : Fin 1) k) := by
  unfold preact
  refine congrArg₂ (· + ·) ?_ ?_
  · refine (Cert.EdgeScore.Lib.matmul_zero_ix2_apply dot_S1024x1024_S1024x512_S1024x512_1_0_0_1_n_n rfl rfl
      first_lhs_row first_lhs_col first_rhs_row first_rhs_col none _ _ p k).trans ?_
    refine Finset.sum_congr rfl fun i _ => ?_
    exact congrArg₂ (· * ·) (shapeCast_1ab_ab_apply x0 _ p i) (shapeCast_1ab_ab_apply x1 _ i k)
  · refine (broadcastTo_1b_ab_apply _ _ p k).trans ?_
    exact shapeCast_1ab_ab_apply x2 _ (0 : Fin 1) k

/-- The activation applied entry by entry, as the body spells it (the cube grouped as `z · (z · z)`). -/
def act (z : FVec Ideal S1024x512 .f32) : FVec Ideal S1024x512 .f32 :=
  mulf z (mulf (broadcast S1024x512 (Scalar.ofBits (F := Ideal) .f32 0x3F000000#32))
    (addf (broadcast S1024x512 (Scalar.ofBits (F := Ideal) .f32 0x3F800000#32))
      (tanh (mulf (broadcast S1024x512 (Scalar.ofBits (F := Ideal) .f32 0x3F4C422A#32))
        (addf z (mulf (broadcast S1024x512 (Scalar.ofBits (F := Ideal) .f32 0x3D372713#32)) (mulf z (mulf z z))))))))

theorem act_apply (z : FVec Ideal S1024x512 .f32) (i : S1024x512.Idx) : act z i = gelu (z i) :=
  gelu_cube_right (z i)

/-- The step's partial product is the activated pre-activation times the second weight tile. -/
theorem partial_eq (x0 : Vec Ideal S1x1024x1024 .f32) (x1 : Vec Ideal S1x1024x512 .f32) (x2 : Vec Ideal S1x1x512 .f32)
    (x3 : Vec Ideal S1x512x1024 .f32) :
    k0_pay2 x0 x1 x2 x3 = matmul dot_S1024x512_S512x1024_S1024x1024_1_0_0_1_n_n none
      (truncf .bf16 (act (preact x0 x1 x2)) bitsLt_bf16_f32)
      (truncf .bf16 (shapeCast S512x1024 x3 shapeCasts_S1x512x1024_S512x1024) bitsLt_bf16_f32)
      (constant (F := Ideal) S1024x1024 .f32 0x00000000#32) := rfl

/-- Entry (p, q) of a step's partial product. -/
theorem partial_apply (x0 : Vec Ideal S1x1024x1024 .f32) (x1 : Vec Ideal S1x1024x512 .f32) (x2 : Vec Ideal S1x1x512 .f32)
    (x3 : Vec Ideal S1x512x1024 .f32) (p q : Fin 1024) :
    k0_pay2 x0 x1 x2 x3 (ix2 p q)
      = ∑ k : Fin 512, gelu ((∑ i : Fin 1024, x0 (ix3 (0 : Fin 1) p i) * x1 (ix3 (0 : Fin 1) i k))
          + x2 (ix3 (0 : Fin 1) (0 : Fin 1) k)) * x3 (ix3 (0 : Fin 1) k q) := by
  rw [partial_eq]
  refine (Cert.EdgeScore.Lib.matmul_zero_ix2_apply dot_S1024x512_S512x1024_S1024x1024_1_0_0_1_n_n rfl rfl
    second_lhs_row second_lhs_col second_rhs_row second_rhs_col none _ _ p q).trans ?_
  refine Finset.sum_congr rfl fun k _ => ?_
  refine congrArg₂ (· * ·) ?_ (shapeCast_1ab_ab_apply x3 _ k q)
  exact (act_apply _ _).trans (congrArg gelu (preact_apply x0 x1 x2 p k))

end Cert.KernelIdeal.Body

end
-- ==== Proof.LibUnitAxis.lean ====
/-
  A unit axis inserted in the middle by a shape cast.

  An `[a, b]` array re-read in row-major order as `[a, 1, b]` has, at `(e, 0, k)`, the entry `(e, k)`: both sit at
  row-major position `e · b + k`. (The library's layout lemmas cover a leading unit axis; this is the middle one, which
  is what `v[:, None, :]` and a reshape to `(a, 1, b)` produce.)
-/
import Idealize.ShloMosaic.Lib.ValueIdx
import Idealize.ShloMosaic.Lib.Pipeline.Value

namespace UnitAxis

open Idealize.ShloMosaic Idealize.ShloMosaic.ValueIdx

/-- An `[a, b]` array cast to `[a, 1, b]` reads, at `(e, u, k)`, the operand at `(e, k)`. -/
theorem shapeCast_ab_a1b_apply {α : Type} {a b : ℕ} (x : (⟨2, ![a, b]⟩ : Shape).Idx → α)
    (h : (⟨2, ![a, b]⟩ : Shape).ShapeCasts ⟨3, ![a, 1, b]⟩) (e : Fin a) (u : Fin 1) (k : Fin b) :
    shapeCast ⟨3, ![a, 1, b]⟩ x h (ix3 e u k) = x (ix2 e k) :=
  shapeCast_apply x h _ _ (by
    have hu : u.val = 0 := by omega
    rw [Shape.rowMajor_val_two, Shape.rowMajor_val_three]
    show e.val * b + k.val = (e.val * 1 + u.val) * b + k.val
    rw [hu, Nat.mul_one, Nat.add_zero])

end UnitAxis
-- ==== Proof.BlockRead.lean ====
/-
  What each window's block holds at a grid step, and what the arrays hold when the pipeline starts.

  The grid has 8 × 8 steps; step `t` works on expert `t / 8` and hidden tile `t % 8`. The token block and the output
  bias row depend on the expert only; the two weight tiles and the hidden bias tile are the tile's 512 hidden units
  `k + 512 · (t % 8)` of that expert. Three of the arrays are written by the host just before the call, each a
  row-major re-reading of an argument: the tokens as [8, 1024, 1024] and the two bias arrays with a unit middle axis.
-/
import proofs.«163050_j7387343749153_2_alg».proof.Proof.Gen.KernelIdeal.Frame
import proofs.«163050_j7387343749153_2_alg».proof.Proof.ExpertMlp
import proofs.«163050_j7387343749153_2_alg».proof.Proof.LibUnitAxis
import Idealize.ShloMosaic.Lib.Pipeline.Value
import Idealize.ShloMosaic.Lib.StableHlo.Run
import Idealize.ShloMosaic.Lib.ValueIdx
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.Blocks

open Cert.KernelIdeal Cert.KernelIdeal.Gen Cert.ExpertMlp

variable {F : FTy → Type} [FloatOps F]
variable (m : (ℓ : Loc nD τ sig) → Buf (Elt F) ℓ)

/-! ## Where each window's block sits at step `t` -/

theorem index_tokens : ∀ t : Fin cfg0.N, win0_0.index t (0 : Fin 3) = t.val / 8 ∧ win0_0.index t (1 : Fin 3) = 0 ∧ win0_0.index t (2 : Fin 3) = 0 :=
  (by decide +kernel : ∀ t : Fin grid0.N, win0_0.index t (0 : Fin 3) = t.val / 8 ∧ win0_0.index t (1 : Fin 3) = 0 ∧ win0_0.index t (2 : Fin 3) = 0)
theorem index_weights1 : ∀ t : Fin cfg0.N, win0_1.index t (0 : Fin 3) = t.val / 8 ∧ win0_1.index t (1 : Fin 3) = 0 ∧ win0_1.index t (2 : Fin 3) = t.val % 8 :=
  (by decide +kernel : ∀ t : Fin grid0.N, win0_1.index t (0 : Fin 3) = t.val / 8 ∧ win0_1.index t (1 : Fin 3) = 0 ∧ win0_1.index t (2 : Fin 3) = t.val % 8)
theorem index_bias1 : ∀ t : Fin cfg0.N, win0_2.index t (0 : Fin 3) = t.val / 8 ∧ win0_2.index t (1 : Fin 3) = 0 ∧ win0_2.index t (2 : Fin 3) = t.val % 8 :=
  (by decide +kernel : ∀ t : Fin grid0.N, win0_2.index t (0 : Fin 3) = t.val / 8 ∧ win0_2.index t (1 : Fin 3) = 0 ∧ win0_2.index t (2 : Fin 3) = t.val % 8)
theorem index_weights2 : ∀ t : Fin cfg0.N, win0_3.index t (0 : Fin 3) = t.val / 8 ∧ win0_3.index t (1 : Fin 3) = t.val % 8 ∧ win0_3.index t (2 : Fin 3) = 0 :=
  (by decide +kernel : ∀ t : Fin grid0.N, win0_3.index t (0 : Fin 3) = t.val / 8 ∧ win0_3.index t (1 : Fin 3) = t.val % 8 ∧ win0_3.index t (2 : Fin 3) = 0)
theorem index_bias2 : ∀ t : Fin cfg0.N, win0_4.index t (0 : Fin 3) = t.val / 8 ∧ win0_4.index t (1 : Fin 3) = 0 ∧ win0_4.index t (2 : Fin 3) = 0 :=
  (by decide +kernel : ∀ t : Fin grid0.N, win0_4.index t (0 : Fin 3) = t.val / 8 ∧ win0_4.index t (1 : Fin 3) = 0 ∧ win0_4.index t (2 : Fin 3) = 0)
theorem index_output : ∀ t : Fin cfg0.N, win0_5.index t (0 : Fin 3) = t.val / 8 ∧ win0_5.index t (1 : Fin 3) = 0 ∧ win0_5.index t (2 : Fin 3) = 0 :=
  (by decide +kernel : ∀ t : Fin grid0.N, win0_5.index t (0 : Fin 3) = t.val / 8 ∧ win0_5.index t (1 : Fin 3) = 0 ∧ win0_5.index t (2 : Fin 3) = 0)

/-! ## The blocks read at an entry -/

/-- The token block at step `t` is group `t / 8`'s 1024 tokens. -/
theorem tokens_block (c : Dev nD) (t : Fin cfg0.N) (e : Fin 8) (he : e.val = t.val / 8) (u : Fin 1) (p i : Fin 1024) :
    (iblk m c 0 t : Vec F S1x1024x1024 .f32) (ix3 u p i) = (V m c main_v0 : S8x1024x1024.Idx → F .f32) (ix3 e p i) := by
  have hi := index_tokens t
  have hu : u.val = 0 := by omega
  unfold iblk
  rw [View.read_apply]
  show (V m c main_v0 : S8x1024x1024.Idx → F .f32) _ = _
  refine congrArg _ (funext fun a => Fin.ext ?_)
  match a with
  | ⟨0, _⟩ => show win0_0.index t (0 : Fin 3) * 1 + 1 * u.val = e.val; rw [hi.1, he, hu]; omega
  | ⟨1, _⟩ => show win0_0.index t (1 : Fin 3) * 1024 + 1 * p.val = p.val; rw [hi.2.1]; omega
  | ⟨2, _⟩ => show win0_0.index t (2 : Fin 3) * 1024 + 1 * i.val = i.val; rw [hi.2.2]; omega

/-- The first weight tile at step `t`: columns `k + 512 · (t % 8)` of expert `t / 8`'s matrix. -/
theorem weights1_block (c : Dev nD) (t : Fin cfg0.N) (e : Fin 8) (he : e.val = t.val / 8) (u : Fin 1) (i : Fin 1024) (k : Fin 512) :
    (iblk m c 1 t : Vec F S1x1024x512 .f32) (ix3 u i k)
      = (V m c main_arg2 : S8x1024x4096.Idx → F .f32) (ix3 e i (tile (t.val % 8) k)) := by
  have hi := index_weights1 t
  have hu : u.val = 0 := by omega
  have hk := tile_val (t.val % 8) (Nat.mod_lt _ (by decide)) k
  unfold iblk
  rw [View.read_apply]
  show (V m c main_arg2 : S8x1024x4096.Idx → F .f32) _ = _
  refine congrArg _ (funext fun a => Fin.ext ?_)
  match a with
  | ⟨0, _⟩ => show win0_1.index t (0 : Fin 3) * 1 + 1 * u.val = e.val; rw [hi.1, he, hu]; omega
  | ⟨1, _⟩ => show win0_1.index t (1 : Fin 3) * 1024 + 1 * i.val = i.val; rw [hi.2.1]; omega
  | ⟨2, _⟩ => show win0_1.index t (2 : Fin 3) * 512 + 1 * k.val = (tile (t.val % 8) k).val; rw [hi.2.2, hk]; omega

/-- The hidden bias tile at step `t`. -/
theorem bias1_block (c : Dev nD) (t : Fin cfg0.N) (e : Fin 8) (he : e.val = t.val / 8) (u v : Fin 1) (k : Fin 512) :
    (iblk m c 2 t : Vec F S1x1x512 .f32) (ix3 u v k)
      = (V m c main_v1 : S8x1x4096.Idx → F .f32) (ix3 e (0 : Fin 1) (tile (t.val % 8) k)) := by
  have hi := index_bias1 t
  have hu : u.val = 0 := by omega
  have hv : v.val = 0 := by omega
  have hk := tile_val (t.val % 8) (Nat.mod_lt _ (by decide)) k
  unfold iblk
  rw [View.read_apply]
  show (V m c main_v1 : S8x1x4096.Idx → F .f32) _ = _
  refine congrArg _ (funext fun a => Fin.ext ?_)
  match a with
  | ⟨0, _⟩ => show win0_2.index t (0 : Fin 3) * 1 + 1 * u.val = e.val; rw [hi.1, he, hu]; omega
  | ⟨1, _⟩ => show win0_2.index t (1 : Fin 3) * 1 + 1 * v.val = 0; rw [hi.2.1, hv]
  | ⟨2, _⟩ => show win0_2.index t (2 : Fin 3) * 512 + 1 * k.val = (tile (t.val % 8) k).val; rw [hi.2.2, hk]; omega

/-- The second weight tile at step `t`: rows `k + 512 · (t % 8)` of expert `t / 8`'s matrix. -/
theorem weights2_block (c : Dev nD) (t : Fin cfg0.N) (e : Fin 8) (he : e.val = t.val / 8) (u : Fin 1) (k : Fin 512) (q : Fin 1024) :
    (iblk m c 3 t : Vec F S1x512x1024 .f32) (ix3 u k q)
      = (V m c main_arg4 : S8x4096x1024.Idx → F .f32) (ix3 e (tile (t.val % 8) k) q) := by
  have hi := index_weights2 t
  have hu : u.val = 0 := by omega
  have hk := tile_val (t.val % 8) (Nat.mod_lt _ (by decide)) k
  unfold iblk
  rw [View.read_apply]
  show (V m c main_arg4 : S8x4096x1024.Idx → F .f32) _ = _
  refine congrArg _ (funext fun a => Fin.ext ?_)
  match a with
  | ⟨0, _⟩ => show win0_3.index t (0 : Fin 3) * 1 + 1 * u.val = e.val; rw [hi.1, he, hu]; omega
  | ⟨1, _⟩ => show win0_3.index t (1 : Fin 3) * 512 + 1 * k.val = (tile (t.val % 8) k).val; rw [hi.2.1, hk]; omega
  | ⟨2, _⟩ => show win0_3.index t (2 : Fin 3) * 1024 + 1 * q.val = q.val; rw [hi.2.2]; omega

/-- The output bias row at step `t`. -/
theorem bias2_block (c : Dev nD) (t : Fin cfg0.N) (e : Fin 8) (he : e.val = t.val / 8) (u v : Fin 1) (q : Fin 1024) :
    (iblk m c 4 t : Vec F S1x1x1024 .f32) (ix3 u v q)
      = (V m c main_v2 : S8x1x1024.Idx → F .f32) (ix3 e (0 : Fin 1) q) := by
  have hi := index_bias2 t
  have hu : u.val = 0 := by omega
  have hv : v.val = 0 := by omega
  unfold iblk
  rw [View.read_apply]
  show (V m c main_v2 : S8x1x1024.Idx → F .f32) _ = _
  refine congrArg _ (funext fun a => Fin.ext ?_)
  match a with
  | ⟨0, _⟩ => show win0_4.index t (0 : Fin 3) * 1 + 1 * u.val = e.val; rw [hi.1, he, hu]; omega
  | ⟨1, _⟩ => show win0_4.index t (1 : Fin 3) * 1 + 1 * v.val = 0; rw [hi.2.1, hv]
  | ⟨2, _⟩ => show win0_4.index t (2 : Fin 3) * 1024 + 1 * q.val = q.val; rw [hi.2.2]; omega

/-! ## The arrays the host writes before the call -/

/-- The tokens as the pipeline finds them: the argument re-read as [8, 1024, 1024]. -/
theorem entry_tokens (c : Dev nD) : (V m c main_v0 : S8x1024x1024.Idx → F .f32)
    = shapeCast S8x1024x1024 (m ((c : Thread nD τ).loc main_arg0)) shapeCasts_S8192x1024_S8x1024x1024 := by
  show StableHlo.after hostOps0 (fun b => m (c, b)) (Proc.devRef .tc main_v0) = _
  after_results
  rfl

/-- The hidden biases as the pipeline finds them: the argument with a unit middle axis. -/
theorem entry_bias1 (c : Dev nD) : (V m c main_v1 : S8x1x4096.Idx → F .f32)
    = shapeCast S8x1x4096 (m ((c : Thread nD τ).loc main_arg3)) shapeCasts_S8x4096_S8x1x4096 := by
  show StableHlo.after hostOps0 (fun b => m (c, b)) (Proc.devRef .tc main_v1) = _
  after_results
  rfl

/-- The output biases as the pipeline finds them: the argument with a unit middle axis. -/
theorem entry_bias2 (c : Dev nD) : (V m c main_v2 : S8x1x1024.Idx → F .f32)
    = shapeCast S8x1x1024 (m ((c : Thread nD τ).loc main_arg5)) shapeCasts_S8x1024_S8x1x1024 := by
  show StableHlo.after hostOps0 (fun b => m (c, b)) (Proc.devRef .tc main_v2) = _
  after_results
  rfl

end Cert.KernelIdeal.Blocks

end
-- ==== Proof.Accumulate.lean ====
/-
  The output block, step by step: after the step of hidden tile `f` of expert `e` the staging block holds, at (p, q),
  the output bias `b2 e q` plus the partial products of tiles `0 … f` — by induction on the grid step, the first tile
  of an expert starting the block afresh and every later tile adding to what the step before left.
-/
import proofs.«163050_j7387343749153_2_alg».proof.Proof.CaseValue
import proofs.«163050_j7387343749153_2_alg».proof.Proof.BodyValue
import proofs.«163050_j7387343749153_2_alg».proof.Proof.BlockRead

noncomputable section

open Idealize.ShloMosaic Idealize.ShloMosaic.TcCoe Idealize.SL.Sem Idealize.ShloMosaic.ValueIdx
open Idealize.ShloMosaic.Pipeline (Dat)

namespace Cert.KernelIdeal.Accum

open Cert.KernelIdeal Cert.KernelIdeal.Gen Cert.ExpertMlp Cert.KernelIdeal.Body Cert.KernelIdeal.Cases Cert.KernelIdeal.Blocks
open scoped BigOperators

variable (m : (ℓ : Loc nD τ sig) → Buf (Elt Ideal) ℓ)

/-! ## The arrays as the pipeline finds them, by coordinates -/

def xK (c : Dev nD) : Fin 8 → Fin 1024 → Fin 1024 → EReal := fun e t i => (V m c main_v0 : S8x1024x1024.Idx → Ideal .f32) (ix3 e t i)
def w1K (c : Dev nD) : Fin 8 → Fin 1024 → Fin 4096 → EReal := fun e i k => (V m c main_arg2 : S8x1024x4096.Idx → Ideal .f32) (ix3 e i k)
def b1K (c : Dev nD) : Fin 8 → Fin 4096 → EReal := fun e k => (V m c main_v1 : S8x1x4096.Idx → Ideal .f32) (ix3 e (0 : Fin 1) k)
def w2K (c : Dev nD) : Fin 8 → Fin 4096 → Fin 1024 → EReal := fun e k d => (V m c main_arg4 : S8x4096x1024.Idx → Ideal .f32) (ix3 e k d)
def b2K (c : Dev nD) : Fin 8 → Fin 1024 → EReal := fun e d => (V m c main_v2 : S8x1x1024.Idx → Ideal .f32) (ix3 e (0 : Fin 1) d)

/-- The partial product of step `t` is tile `t % 8`'s contribution for expert `t / 8`. -/
theorem step_partial (c : Dev nD) (t : Fin cfg0.N) (e : Fin 8) (he : e.val = t.val / 8) (p q : Fin 1024) :
    k0_pay2 (iblk m c 0 t) (iblk m c 1 t) (iblk m c 2 t) (iblk m c 3 t) (ix2 p q)
      = part (xK m c) (w1K m c) (b1K m c) (w2K m c) e p q (t.val % 8) := by
  refine (partial_apply (iblk m c 0 t) (iblk m c 1 t) (iblk m c 2 t) (iblk m c 3 t) p q).trans ?_
  unfold part
  refine Finset.sum_congr rfl fun k _ => ?_
  exact congrArg₂ (· * ·)
    (congrArg gelu (congrArg₂ (· + ·)
      (Finset.sum_congr rfl fun i _ => congrArg₂ (· * ·) (tokens_block m c t e he (0 : Fin 1) p i) (weights1_block m c t e he (0 : Fin 1) i k))
      (bias1_block m c t e he (0 : Fin 1) (0 : Fin 1) k)))
    (weights2_block m c t e he (0 : Fin 1) k q)

/-- After the first tile's step the block holds the bias plus that tile's contribution. -/
theorem first_tile (c : Dev nD) (t : Fin cfg0.N) (h0 : t.val % 8 = 0) (e : Fin 8) (he : e.val = t.val / 8) (u : Fin 1) (p q : Fin 1024) :
    outsAt0 m c t.val t.isLt (ix3 u p q) = acc (xK m c) (w1K m c) (b1K m c) (w2K m c) (b2K m c) e p q 0 := by
  have hA := first_step (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (iblk m c 0 t) (iblk m c 1 t) (iblk m c 2 t) (iblk m c 3 t) (iblk m c 4 t)
  refine (congrFun ((outsAt0_A m c t h0).trans hA) (ix3 u p q)).trans ?_
  rw [acc_zero]
  refine (accumulate_apply _ _ u p q).trans ?_
  refine congrArg₂ (· + ·) ?_ ?_
  · refine (readback_apply _ p q).trans ?_
    refine (bias_rows_apply _ (0 : Fin 1) p q).trans ?_
    exact bias2_block m c t e he (0 : Fin 1) (0 : Fin 1) q
  · have := step_partial m c t e he p q
    rw [h0] at this
    exact this

/-- What the staging block holds after step `n`. -/
theorem running (c : Dev nD) (n : ℕ) : ∀ (h : n < cfg0.N) (e : Fin 8) (he : e.val = n / 8) (u : Fin 1) (p q : Fin 1024),
    outsAt0 m c n h (ix3 u p q) = acc (xK m c) (w1K m c) (b1K m c) (w2K m c) (b2K m c) e p q (n % 8) := by
  induction n with
  | zero =>
    intro h e he u p q
    exact first_tile m c ⟨0, h⟩ rfl e he u p q
  | succ k ih =>
    intro h e he u p q
    by_cases h0 : (k + 1) % 8 = 0
    · rw [h0]
      exact first_tile m c ⟨k + 1, h⟩ h0 e he u p q
    · have hB := later_step (F := Ideal) c (grid0.coords ⟨k + 1, h⟩) (ms0_0 ⟨k + 1, h⟩) (hs0_0 ⟨k + 1, h⟩) (ms0_1 ⟨k + 1, h⟩) (hs0_1 ⟨k + 1, h⟩) (ms0_2 ⟨k + 1, h⟩) (hs0_2 ⟨k + 1, h⟩) (ms0_3 ⟨k + 1, h⟩) (hs0_3 ⟨k + 1, h⟩) (ms0_4 ⟨k + 1, h⟩) (hs0_4 ⟨k + 1, h⟩) (ms0_5 ⟨k + 1, h⟩) (hs0_5 ⟨k + 1, h⟩) (fun hh => h0 ((hcond0_0 ⟨k + 1, h⟩).mp hh)) (iblk m c 0 ⟨k + 1, h⟩) (iblk m c 1 ⟨k + 1, h⟩) (iblk m c 2 ⟨k + 1, h⟩) (iblk m c 3 ⟨k + 1, h⟩) (iblk m c 4 ⟨k + 1, h⟩)
        (outsAt0 m c k (Nat.lt_of_succ_lt h))
      refine (congrFun ((outsAt0_B m c ⟨k + 1, h⟩ h0).trans hB) (ix3 u p q)).trans ?_
      have hf : (k + 1) % 8 = k % 8 + 1 := by omega
      rw [hf, acc_succ]
      refine (accumulate_apply _ _ u p q).trans ?_
      refine congrArg₂ (· + ·) ?_ ?_
      · refine (readback_apply _ p q).trans ?_
        exact ih (Nat.lt_of_succ_lt h) e (by omega) (0 : Fin 1) p q
      · have := step_partial m c ⟨k + 1, h⟩ e he p q
        rw [show (⟨k + 1, h⟩ : Fin cfg0.N).val % 8 = k % 8 + 1 from hf] at this
        exact this

end Cert.KernelIdeal.Accum

end
-- ==== Proof.ExpertArrays.lean ====
/-
  The five argument arrays as functions of coordinates, and all experts' outputs as one array.

  The 8192 tokens are viewed as 8 groups of 1024 (the array re-read in row-major order as [8, 1024, 1024]); group `e`
  goes through expert `e`. `outputs` is the [8, 1024, 1024] array of every expert's outputs; both programs finish by
  re-reading it in row-major order as [8192, 1024].
-/
import proofs.«163050_j7387343749153_2_alg».proof.Proof.ExpertMlp
import Idealize.ShloMosaic.Lib.ValueIdx

noncomputable section

namespace Cert.ExpertMlp

open Idealize.ShloMosaic Idealize.ShloMosaic.ValueIdx

section

variable (hin : (⟨2, ![8192, 1024]⟩ : Shape).ShapeCasts ⟨3, ![8, 1024, 1024]⟩)
  (X : (⟨2, ![8192, 1024]⟩ : Shape).Idx → EReal) (W1 : (⟨3, ![8, 1024, 4096]⟩ : Shape).Idx → EReal)
  (B1 : (⟨2, ![8, 4096]⟩ : Shape).Idx → EReal) (W2 : (⟨3, ![8, 4096, 1024]⟩ : Shape).Idx → EReal)
  (B2 : (⟨2, ![8, 1024]⟩ : Shape).Idx → EReal)

/-- Token `t` of group `e`, feature `i`. -/
def tokens : Fin 8 → Fin 1024 → Fin 1024 → EReal := fun e t i => shapeCast ⟨3, ![8, 1024, 1024]⟩ X hin (ix3 e t i)
/-- Expert `e`'s first weight matrix. -/
def weights1 : Fin 8 → Fin 1024 → Fin 4096 → EReal := fun e i k => W1 (ix3 e i k)
/-- Expert `e`'s hidden biases. -/
def bias1 : Fin 8 → Fin 4096 → EReal := fun e k => B1 (ix2 e k)
/-- Expert `e`'s second weight matrix. -/
def weights2 : Fin 8 → Fin 4096 → Fin 1024 → EReal := fun e k d => W2 (ix3 e k d)
/-- Expert `e`'s output biases. -/
def bias2 : Fin 8 → Fin 1024 → EReal := fun e d => B2 (ix2 e d)

/-- Every expert's outputs, as one [8, 1024, 1024] array. -/
def outputs : (⟨3, ![8, 1024, 1024]⟩ : Shape).Idx → EReal := fun j =>
  out (tokens hin X) (weights1 W1) (bias1 B1) (weights2 W2) (bias2 B2)
    ⟨(j 0).val, (j 0).isLt⟩ ⟨(j 1).val, (j 1).isLt⟩ ⟨(j 2).val, (j 2).isLt⟩

theorem outputs_apply (e : Fin 8) (t d : Fin 1024) :
    outputs hin X W1 B1 W2 B2 (ix3 e t d) = out (tokens hin X) (weights1 W1) (bias1 B1) (weights2 W2) (bias2 B2) e t d := rfl

end

end Cert.ExpertMlp

end
-- ==== Proof.KernelValue.lean ====
/-
  The kernel program's result on the extended reals.

  When the last hidden tile of expert `e` has been added, the staging block holds expert `e`'s outputs for its 1024
  tokens, and that is the step at which the block is written back to rows `e` of the [8, 1024, 1024] result array. The
  eight written blocks tile the array, so it ends holding every expert's outputs; the host then re-reads it in
  row-major order as [8192, 1024].
-/
import proofs.«163050_j7387343749153_2_alg».proof.Proof.Accumulate
import proofs.«163050_j7387343749153_2_alg».proof.Proof.ExpertArrays

noncomputable section

open Idealize.ShloMosaic Idealize.ShloMosaic.TcCoe Idealize.SL.Sem Idealize.ShloMosaic.ValueIdx
open Idealize.ShloMosaic.Pipeline (Dat)

namespace Cert.KernelIdeal.Result

open Cert.KernelIdeal Cert.KernelIdeal.Gen Cert.ExpertMlp Cert.KernelIdeal.Blocks Cert.KernelIdeal.Accum

variable (m : (ℓ : Loc nD τ sig) → Buf (Elt Ideal) ℓ) (ρ : Dev nD → PrngReg)

/-! ## The arrays the pipeline finds are the arguments -/

theorem tokens_eq (c : Dev nD) : xK m c = tokens shapeCasts_S8192x1024_S8x1024x1024 (m ((c : Thread nD τ).loc main_arg0)) := by
  funext e t i
  unfold xK tokens
  rw [entry_tokens m c]
theorem weights1_eq (c : Dev nD) : w1K m c = weights1 (m ((c : Thread nD τ).loc main_arg2)) := by
  funext e i k
  unfold w1K weights1
  rw [V_main_arg2 m c]
theorem bias1_eq (c : Dev nD) : b1K m c = bias1 (m ((c : Thread nD τ).loc main_arg3)) := by
  funext e k
  unfold b1K bias1
  rw [entry_bias1 m c]
  exact UnitAxis.shapeCast_ab_a1b_apply _ _ e (0 : Fin 1) k
theorem weights2_eq (c : Dev nD) : w2K m c = weights2 (m ((c : Thread nD τ).loc main_arg4)) := by
  funext e k d
  unfold w2K weights2
  rw [V_main_arg4 m c]
theorem bias2_eq (c : Dev nD) : b2K m c = bias2 (m ((c : Thread nD τ).loc main_arg5)) := by
  funext e d
  unfold b2K bias2
  rw [entry_bias2 m c]
  exact UnitAxis.shapeCast_ab_a1b_apply _ _ e (0 : Fin 1) d

/-- Every expert's outputs for the arguments the program was launched with. -/
abbrev experts (c : Dev nD) : S8x1024x1024.Idx → Ideal .f32 :=
  outputs shapeCasts_S8192x1024_S8x1024x1024 (m ((c : Thread nD τ).loc main_arg0)) (m ((c : Thread nD τ).loc main_arg2)) (m ((c : Thread nD τ).loc main_arg3)) (m ((c : Thread nD τ).loc main_arg4)) (m ((c : Thread nD τ).loc main_arg5))

/-! ## The block written back after an expert's last tile -/

/-- After the last tile of expert `t / 8` the staging block holds that expert's outputs. -/
theorem last_tile (c : Dev nD) (t : Fin cfg0.N) (h7 : t.val % 8 = 7) (e : Fin 8) (he : e.val = t.val / 8) (u : Fin 1) (p q : Fin 1024) :
    outsAt0 m c t.val t.isLt (ix3 u p q) = experts m c (ix3 e p q) := by
  rw [running m c t.val t.isLt e he u p q, h7, acc_last, tokens_eq, weights1_eq, bias1_eq, weights2_eq, bias2_eq]
  rfl

/-- What step `t` writes back is its block of the experts' outputs. -/
theorem flushed_eq (c : Dev nD) (t : Fin cfg0.N) (hf : (cfg0.win 5).flush t = true) :
    (dats m 0 c).flushed 5 t = ((cfg0.win 5).blk t).view.read (Elt Ideal) (experts m c) := by
  have h7 : t.val % 8 = 7 := (flush0_5 t).mp hf
  have hN : t.val < 64 := lt_of_lt_of_eq t.isLt N_0
  obtain ⟨e0, e1, e2⟩ := index_output t
  show (cfg0.win 5).cut (grid0.coords t) ((dats m 0 c).after 5 t) = _
  rw [after0_5]
  funext j
  have hj0 : (j 0).val < 1 := (j 0).isLt
  have hj1 : (j 1).val < 1024 := (j 1).isLt
  have hj2 : (j 2).val < 1024 := (j 2).isLt
  have hj : j = ix3 (⟨(j 0).val, hj0⟩ : Fin 1) (⟨(j 1).val, hj1⟩ : Fin 1024) (⟨(j 2).val, hj2⟩ : Fin 1024) :=
    funext fun a => match a with | ⟨0, _⟩ => rfl | ⟨1, _⟩ => rfl | ⟨2, _⟩ => rfl
  show outsAt0 m c t.val t.isLt j = experts m c (((cfg0.win 5).blk t).view.emb j)
  have hemb : ((cfg0.win 5).blk t).view.emb j
      = ix3 (⟨t.val / 8, by omega⟩ : Fin 8) (⟨(j 1).val, hj1⟩ : Fin 1024) (⟨(j 2).val, hj2⟩ : Fin 1024) := by
    funext a; apply Fin.ext
    match a with
    | ⟨0, _⟩ => show win0_5.index t (0 : Fin 3) * 1 + 1 * (j 0).val = t.val / 8; omega
    | ⟨1, _⟩ => show win0_5.index t (1 : Fin 3) * 1024 + 1 * (j 1).val = (j 1).val; omega
    | ⟨2, _⟩ => show win0_5.index t (2 : Fin 3) * 1024 + 1 * (j 2).val = (j 2).val; omega
  rw [hemb]
  refine (congrArg (outsAt0 m c t.val t.isLt) hj).trans ?_
  exact last_tile m c t h7 ⟨t.val / 8, by omega⟩ rfl _ _ _

/-! ## The written blocks tile the result array -/

theorem mem_blk (t : Fin cfg0.N) (i : S8x1024x1024.Idx) :
    i ∈ ((cfg0.win 5).blk t).view.set ↔ ∀ a : Fin 3, win0_5.index t a * S1x1024x1024.size a ≤ (i a).val
      ∧ (i a).val < win0_5.index t a * S1x1024x1024.size a + S1x1024x1024.size a := by
  show i ∈ ((View.whole main_v3).slice (win0_5.rect t)).set ↔ _
  rw [View.set_slice_whole, Rect.mem_set_unit]
  exact Iff.rfl

/-- Rows `e` of the result array are written back at the step of expert `e`'s last tile. -/
theorem cover (i : S8x1024x1024.Idx) :
    ∃ t : Fin cfg0.N, (cfg0.win 5).flush t = true ∧ i ∈ ((cfg0.win 5).blk t).view.set := by
  have h0 : (i 0).val < 8 := (i 0).isLt
  have h1 : (i 1).val < 1024 := (i 1).isLt
  have h2 : (i 2).val < 1024 := (i 2).isLt
  have hN : cfg0.N = 64 := N_0
  have ht : 8 * (i 0).val + 7 < cfg0.N := by rw [hN]; omega
  refine ⟨⟨8 * (i 0).val + 7, ht⟩, (flush0_5 _).mpr (by show (8 * (i 0).val + 7) % 8 = 7; omega), ?_⟩
  rw [mem_blk]
  obtain ⟨e0, e1, e2⟩ := index_output ⟨8 * (i 0).val + 7, ht⟩
  have e0' : win0_5.index ⟨8 * (i 0).val + 7, ht⟩ (0 : Fin 3) = (i 0).val := by
    rw [e0]; show (8 * (i 0).val + 7) / 8 = (i 0).val; omega
  intro a
  match a with
  | ⟨0, _⟩ =>
    show win0_5.index ⟨8 * (i 0).val + 7, ht⟩ (0 : Fin 3) * 1 ≤ (i 0).val ∧ (i 0).val < win0_5.index ⟨8 * (i 0).val + 7, ht⟩ (0 : Fin 3) * 1 + 1
    rw [e0']; omega
  | ⟨1, _⟩ =>
    show win0_5.index ⟨8 * (i 0).val + 7, ht⟩ (1 : Fin 3) * 1024 ≤ (i 1).val ∧ (i 1).val < win0_5.index ⟨8 * (i 0).val + 7, ht⟩ (1 : Fin 3) * 1024 + 1024
    rw [e1]; omega
  | ⟨2, _⟩ =>
    show win0_5.index ⟨8 * (i 0).val + 7, ht⟩ (2 : Fin 3) * 1024 ≤ (i 2).val ∧ (i 2).val < win0_5.index ⟨8 * (i 0).val + 7, ht⟩ (2 : Fin 3) * 1024 + 1024
    rw [e2]; omega

/-- The result array of the call ends holding every expert's outputs. -/
theorem final (c : Dev nD) : (dats m 0 c).arrAt 5 cfg0.N = experts m c :=
  (dats m 0 c).arrAt_eq_of_cover 5 (experts m c) (flushed_eq m c) cover

/-! ## The host's closing reshape, and the run -/

/-- What the program returns: the experts' outputs re-read as [8192, 1024]. -/
abbrev returned (c : Dev nD) : S8192x1024.Idx → Ideal .f32 :=
  shapeCast S8192x1024 (experts m c) shapeCasts_S8x1024x1024_S8192x1024

/-- After the call the host's one operation re-reads the call's result array. -/
theorem tail_eq (c : Dev nD) :
    Pipeline.afterTail₀ cfgs (dats m) 0 (V0 m) [hostOps1] c main_v4 = returned m c := by
  unfold Pipeline.afterTail₀
  show StableHlo.after hostOps1 _ (Proc.devRef .tc main_v4) = _
  after_results
  exact congrArg (fun a => shapeCast S8192x1024 a shapeCasts_S8x1024x1024_S8192x1024)
    ((Pipeline.withArrays_arr spec0 launch0.win.arr_inj c _ _ 5).trans (final m c))

/-- Every weakly fair execution of the kernel program ends with its result at `returned` and its arguments unchanged. -/
theorem run : θ_run defs (onTc (τ := τ) (main (F := Ideal))) ⟨m, fun _ => 0, ρ⟩ (fun r => ∀ c : Dev nD,
      r.2.mem ((c.tc : Thread nD τ).loc main_v4) = returned m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h c).2 main_v4 (Pipeline.mem_restRefs_of main_v4 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).1 1).trans (((dats m 0 c).arrAt_in 1 rfl _).trans ((A_eq m c 1).trans (V_main_arg2 m c))),
      ((h c).2 main_arg3 (Pipeline.mem_restRefs_of main_arg3 (by decide) (by decide))).trans (W_main_arg3 m (dats m) c),
      ((h c).1 3).trans (((dats m 0 c).arrAt_in 3 rfl _).trans ((A_eq m c 3).trans (V_main_arg4 m c))),
      ((h c).2 main_arg5 (Pipeline.mem_restRefs_of main_arg5 (by decide) (by decide))).trans (W_main_arg5 m (dats m) c)⟩)
    (run_main m ρ)

end Cert.KernelIdeal.Result

end
-- ==== Proof.RefRead.lean ====
/-
  The reference program, read at an entry: its result before the final re-reading is the array of every expert's
  outputs.

  The reference computes, for every group e, token t and hidden unit k, the pre-activation
  `(Σ_i x e t i · w1 e i k) + b1 e k` by one batched product and a broadcast bias, applies the tanh form of GELU with
  the cube grouped as `(z · z) · z`, multiplies by the second weight matrix in one batched product over all 4096 hidden
  units, and adds the output bias last.
-/
import proofs.«163050_j7387343749153_2_alg».proof.Proof.Gen.ReferenceIdeal.Read
import proofs.«163050_j7387343749153_2_alg».proof.Proof.ExpertArrays

noncomputable section

namespace Cert.ReferenceIdeal.Outputs

open Cert.ReferenceIdeal Cert.ReferenceIdeal.Gen Cert.ReferenceIdeal.Read Cert.ExpertMlp
open Idealize.ShloMosaic Idealize.ShloMosaic.ValueIdx
open scoped BigOperators

variable (hin : S8192x1024.ShapeCasts S8x1024x1024)
  (x0 : (⟨S8192x1024, .f32⟩ : BufTy).Contents (Elt Ideal)) (x2 : (⟨S8x1024x4096, .f32⟩ : BufTy).Contents (Elt Ideal))
  (x3 : (⟨S8x4096, .f32⟩ : BufTy).Contents (Elt Ideal)) (x4 : (⟨S8x4096x1024, .f32⟩ : BufTy).Contents (Elt Ideal))
  (x5 : (⟨S8x1024, .f32⟩ : BufTy).Contents (Elt Ideal))

/-- The pre-activation of hidden unit k at token t of group e. -/
theorem preact_apply (e : Fin 8) (t : Fin 1024) (k : Fin 4096) :
    val_main_v4 (F := Ideal) x0 x2 x3 (ix3 e t k)
      = (∑ i : Fin 1024, tokens hin x0 e t i * weights1 x2 e i k) + bias1 x3 e k := by
  rw [val_main_v4_apply, val_main_v1_apply, val_main_v3_apply, val_main_v2_apply]
  refine congrArg₂ (· + ·) (Finset.sum_congr rfl fun i _ => ?_) ?_
  · have el : lidx_main_v1 (ix3 e t k) i = ix3 e t i :=
      funext fun a => Fin.ext (by match a with | ⟨0, _⟩ => rfl | ⟨1, _⟩ => rfl | ⟨2, _⟩ => rfl)
    have er : ridx_main_v1 (ix3 e t k) i = ix3 e i k :=
      funext fun a => Fin.ext (by match a with | ⟨0, _⟩ => rfl | ⟨1, _⟩ => rfl | ⟨2, _⟩ => rfl)
    rw [el, er]
    rfl
  · have eb : idx_main_v2 (idx_main_v3 (ix3 e t k)) = ix2 e k :=
      funext fun a => Fin.ext (by match a with | ⟨0, _⟩ => rfl | ⟨1, _⟩ => rfl)
    rw [eb]
    rfl

/-- The activated hidden unit. -/
theorem hidden_apply (e : Fin 8) (t : Fin 1024) (k : Fin 4096) :
    val_main_v17 (F := Ideal) x0 x2 x3 (ix3 e t k) = hidden (tokens hin x0) (weights1 x2) (bias1 x3) e t k := by
  rw [val_main_v17_apply, val_main_v16_apply, val_main_v15_apply, val_main_cst_2_apply, val_main_v14_apply,
    val_main_v13_apply, val_main_cst_1_apply, val_main_v12_apply, val_main_v11_apply, val_main_v10_apply,
    val_main_cst_0_apply, val_main_v9_apply, val_main_v8_apply, val_main_v7_apply, val_main_cst_apply,
    val_main_v6_apply, val_main_v5_apply, preact_apply hin]
  rfl

/-- The reference's result before its final re-reading is the array of every expert's outputs. -/
theorem outputs_eq : val_main_v21 (F := Ideal) x0 x2 x3 x4 x5 = outputs hin x0 x2 x3 x4 x5 := by
  funext j
  obtain ⟨e, t, d, rfl⟩ : ∃ (e : Fin 8) (t d : Fin 1024), j = ix3 e t d := ⟨j 0, j 1, j 2, eq_ix3 j⟩
  rw [outputs_apply, val_main_v21_apply, val_main_v18_apply, val_main_v20_apply, val_main_v19_apply]
  unfold out
  refine congrArg₂ (· + ·) (Finset.sum_congr rfl fun k _ => ?_) ?_
  · have el : lidx_main_v18 (ix3 e t d) k = ix3 e t k :=
      funext fun a => Fin.ext (by match a with | ⟨0, _⟩ => rfl | ⟨1, _⟩ => rfl | ⟨2, _⟩ => rfl)
    have er : ridx_main_v18 (ix3 e t d) k = ix3 e k d :=
      funext fun a => Fin.ext (by match a with | ⟨0, _⟩ => rfl | ⟨1, _⟩ => rfl | ⟨2, _⟩ => rfl)
    rw [el, er, hidden_apply hin]
    rfl
  · have eb : idx_main_v19 (idx_main_v20 (ix3 e t d)) = ix2 e d :=
      funext fun a => Fin.ext (by match a with | ⟨0, _⟩ => rfl | ⟨1, _⟩ => rfl)
    rw [eb]
    rfl

end Cert.ReferenceIdeal.Outputs

end
-- ==== Proof.lean ====
/-
  Eight experts' feed-forward blocks, `y_e = gelu (x_e · w1_e + b1_e) · w2_e + b2_e` with the tanh form of GELU, computed
  two ways over the extended reals:

  * the kernel walks a grid of 8 experts × 8 tiles of 512 hidden units; at each step it forms the tile's activations
    from the expert's 1024 tokens, multiplies them by the matching rows of `w2_e`, and adds the product to the expert's
    output block, which the first tile starts at the bias `b2_e` and the last tile writes back;
  * the reference forms all 4096 activations by one batched product, multiplies by `w2` in one batched product and adds
    `b2` last.

  Both view the 8192 tokens as 8 groups of 1024 and return the [8, 1024, 1024] array of outputs re-read as
  [8192, 1024]. Entry by entry the kernel's result is `b2 + Σ_tiles Σ_{k in tile} h_k · w2_k` and the reference's is
  `(Σ_{k < 4096} h_k · w2_k) + b2` with the same activations `h_k` (the two programs group `z³` as `z · (z · z)` and
  `(z · z) · z`): equal because addition and multiplication of extended reals are commutative and associative. No
  cancellation or distributivity is used, so the finiteness of the inputs is not needed for the equality.

  The modules: ExpertMlp (the formulas and the regrouping law), ExpertArrays (the arguments as coordinate functions),
  BodyValue (one grid step's arithmetic at an entry), CaseValue (what a step leaves in the output block), BlockRead
  (which part of each argument a step sees), Accumulate (the output block after each step), KernelValue (the kernel
  program's result), RefRead (the reference's result).
-/
import proofs.«163050_j7387343749153_2_alg».proof.Defs
import proofs.«163050_j7387343749153_2_alg».proof.Proof.Gen.Kernel
import proofs.«163050_j7387343749153_2_alg».proof.Proof.Gen.Kernel.Frame
import proofs.«163050_j7387343749153_2_alg».proof.Proof.Gen.KernelIdeal
import proofs.«163050_j7387343749153_2_alg».proof.Proof.Gen.KernelIdeal.Frame
import proofs.«163050_j7387343749153_2_alg».proof.Proof.Gen.ReferenceIdeal
import proofs.«163050_j7387343749153_2_alg».proof.Proof.Gen.ReferenceIdeal.Run
import proofs.«163050_j7387343749153_2_alg».proof.Proof.Gen.Pre_finite_inputs
import proofs.«163050_j7387343749153_2_alg».proof.Proof.KernelValue
import proofs.«163050_j7387343749153_2_alg».proof.Proof.RefRead
import Idealize.ShloMosaic.Adequacy
import Idealize.ShloMosaic.Init

noncomputable section

namespace Cert.Proof

open Idealize.ShloMosaic Idealize.SL.Sem

/-- The three programs run to completion without a fault and leave their arguments as they were. -/
theorem frame_kernel : Cert.frame_Kernel := fun m ρ _ => Cert.Kernel.Gen.frame m ρ
theorem frame_kernelIdeal : Cert.frame_KernelIdeal := fun m ρ _ => Cert.KernelIdeal.Gen.frame m ρ
theorem frame_reference : Cert.frame_ReferenceIdeal := fun m ρ _ =>
  (θ_run Cert.ReferenceIdeal.defs _ _).mono (fun _ h c => (h c).2) (Cert.ReferenceIdeal.Value.run (F := Ideal) m ρ)

/-- The kernel program read over the extended reals is its own text: nothing was rewritten. -/
theorem preserves : Cert.preserves_Kernel_KernelIdeal := trivial

/-- The reference's result is the experts' outputs re-read as [8192, 1024]: what the kernel program returns. -/
theorem reference_returned (hin : Cert.ReferenceIdeal.S8192x1024.ShapeCasts Cert.ReferenceIdeal.S8x1024x1024)
    (hout : Cert.ReferenceIdeal.S8x1024x1024.ShapeCasts Cert.ReferenceIdeal.S8192x1024)
    (x0 : (⟨Cert.ReferenceIdeal.S8192x1024, .f32⟩ : BufTy).Contents (Elt Ideal))
    (x2 : (⟨Cert.ReferenceIdeal.S8x1024x4096, .f32⟩ : BufTy).Contents (Elt Ideal))
    (x3 : (⟨Cert.ReferenceIdeal.S8x4096, .f32⟩ : BufTy).Contents (Elt Ideal))
    (x4 : (⟨Cert.ReferenceIdeal.S8x4096x1024, .f32⟩ : BufTy).Contents (Elt Ideal))
    (x5 : (⟨Cert.ReferenceIdeal.S8x1024, .f32⟩ : BufTy).Contents (Elt Ideal)) :
    Cert.ReferenceIdeal.Read.val_main_v22 (F := Ideal) x0 x2 x3 x4 x5
      = shapeCast Cert.ReferenceIdeal.S8192x1024 (Cert.ExpertMlp.outputs hin x0 x2 x3 x4 x5) hout := by
  unfold Cert.ReferenceIdeal.Read.val_main_v22
  rw [Cert.ReferenceIdeal.Outputs.outputs_eq hin]

/-- From memories that agree on the arguments, both idealized programs end with the same result, entry by entry. -/
theorem algebraic : Cert.algebraic_KernelIdeal_ReferenceIdeal := by
  intro m ρ m' ρ' _ hagree
  refine ⟨fun c => Cert.KernelIdeal.Result.returned m c, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  obtain ⟨a0, _, a2, a3, a4, a5⟩ := hagree c
  rw [Cert.ReferenceIdeal.Read.val_main_v22_eq, a0, a2, a3, a4, a5]
  exact reference_returned Cert.KernelIdeal.Facts₀.shapeCasts_S8192x1024_S8x1024x1024
    Cert.KernelIdeal.Facts₀.shapeCasts_S8x1024x1024_S8192x1024 _ _ _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
